-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x64 : Shape := ⟨2, ![4096, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S8192x4096 .f32) (main_arg1 : FVec F S4096x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S8192x4096 : Shape := ⟨2, ![8192, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S8192x1 : Shape := ⟨2, ![8192, 1]⟩
abbrev S512x4096 : Shape := ⟨2, ![512, 4096]⟩
abbrev S512x1 : Shape := ⟨2, ![512, 1]⟩
abbrev S512x64 : Shape := ⟨2, ![512, 64]⟩
abbrev S512 : Shape := ⟨1, ![512]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S8192x1, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S1x4096, .f32⟩
  | .local _ .vmem, ⟨4, _⟩ => ⟨S512x1, .f32⟩
  | .local _ .vmem, ⟨5, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  reduces_S512x64_S512 : S512x64.Reduces [1] S512
  shapeCasts_S512_S512x1 : S512.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  inb_S512x1_S512x1_0_0 : ∀ a, (![0, 0] : Fin 2 → Nat) a + S512x1.size a ≤ S512x1.size a
  h_S512x1 : 0 < S512x1.numel
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S8192x64, .f32⟩
  | .hbm, ⟨3, _⟩ => ⟨S8192x4096, .f32⟩
  | .hbm, ⟨4, _⟩ => ⟨S4096x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.Spec.lean ====
/-
  The second-order (pairwise) interaction of a factorization machine, as mathematics only.

  For a row `b` of `x : [8192, 4096]` and the factor matrix `v : [4096, 64]` write
  `p_k = ∑ f, x[b,f] · v[f,k]` (the row projected on factor `k`). The interaction is
  `½ · ∑ k, (p_k² − ∑ f, x[b,f]² · v[f,k]²)`.

  Two arrangements of this number occur. In the first the inner sum over `k` of `v[f,k]²` is taken once, as
  the squared norm `w[f]` of row `f` of `v`, and the subtraction is done after both sums over `k`
  (`pairwiseK`); in the second the subtraction is done factor by factor (`pairwiseR`). They agree on finite
  entries: the difference of two finite sums is the sum of the differences, a finite factor moves into a finite
  sum, and two finite sums commute. On the extended reals these three steps need every entry to be a real number
  (an infinite entry would make a difference `⊤ − ⊤`), so the law is stated for real entries and proved in `ℝ`,
  the coercion into the extended reals being additive and multiplicative.
-/
import Idealize.ShloMosaic.PureOps.Ideal
import Idealize.ShloMosaic.Lib.ValueIdx

noncomputable section

open scoped BigOperators

namespace Cert.Interaction

open Idealize.ShloMosaic Idealize.ShloMosaic.ValueIdx

/-! ## The law over abstract finite index types -/

/-- The coercion of the reals into the extended reals is additive over a finite sum. -/
theorem coe_sum {ι : Type*} (s : Finset ι) (g : ι → ℝ) :
    ((∑ i ∈ s, g i : ℝ) : EReal) = ∑ i ∈ s, (g i : EReal) := by
  classical
  refine Finset.induction_on s ?_ ?_
  · simp
  · intro a s ha ih
    rw [Finset.sum_insert ha, Finset.sum_insert ha, EReal.coe_add, ih]

/-- In `ℝ`: the sum over the factors of the squared projections, less the squared entries weighted by the rows'
    squared norms, is the sum over the factors of (squared projection less the entries' squared products). -/
theorem arrangement_real {ι κ : Type*} [Fintype ι] [Fintype κ] (x : ι → ℝ) (v : ι → κ → ℝ) :
    (∑ k, (∑ f, x f * v f k) * (∑ f, x f * v f k)) - ∑ f, (x f * x f) * ∑ k, v f k * v f k
      = ∑ k, ((∑ f, x f * v f k) * (∑ f, x f * v f k) - ∑ f, (x f * x f) * (v f k * v f k)) := by
  rw [Finset.sum_sub_distrib]
  congr 1
  simp_rw [Finset.mul_sum]
  exact Finset.sum_comm

/-- The same on the extended reals, for entries that are real numbers, under any common factor `h`. -/
theorem arrangement {ι κ : Type*} [Fintype ι] [Fintype κ] (h : EReal) (x : ι → ℝ) (v : ι → κ → ℝ) :
    h * ((∑ k, (∑ f, (x f : EReal) * (v f k : EReal)) * (∑ f, (x f : EReal) * (v f k : EReal)))
        - ∑ f, ((x f : EReal) * (x f : EReal)) * ∑ k, (v f k : EReal) * (v f k : EReal))
      = h * ∑ k, ((∑ f, (x f : EReal) * (v f k : EReal)) * (∑ f, (x f : EReal) * (v f k : EReal))
        - ∑ f, ((x f : EReal) * (x f : EReal)) * ((v f k : EReal) * (v f k : EReal))) := by
  have e := congrArg (fun r : ℝ => (r : EReal)) (arrangement_real x v)
  simp only [EReal.coe_sub, coe_sum, EReal.coe_mul] at e
  rw [e]

/-! ## The two arrangements over the literal shapes -/

/-- One half, as the extended real its f32 word denotes (the same word on both sides: never evaluated). -/
def half : EReal := Ideal.ofBits .f32 0x3F000000#32

/-- Row `b` of `x` projected on factor `k`. -/
def proj (x : (⟨2, ![8192, 4096]⟩ : Shape).Idx → EReal) (v : (⟨2, ![4096, 64]⟩ : Shape).Idx → EReal)
    (b : Fin 8192) (k : Fin 64) : EReal :=
  ∑ f : Fin 4096, x (ix2 b f) * v (ix2 f k)

/-- The squared norm of row `f` of `v`. -/
def rowSq (v : (⟨2, ![4096, 64]⟩ : Shape).Idx → EReal) (f : Fin 4096) : EReal :=
  ∑ k : Fin 64, v (ix2 f k) * v (ix2 f k)

/-- The interaction of row `b`, subtracting after both sums over the factors. -/
def pairwiseK (x : (⟨2, ![8192, 4096]⟩ : Shape).Idx → EReal) (v : (⟨2, ![4096, 64]⟩ : Shape).Idx → EReal)
    (b : Fin 8192) : EReal :=
  half * ((∑ k : Fin 64, proj x v b k * proj x v b k) - ∑ f : Fin 4096, (x (ix2 b f) * x (ix2 b f)) * rowSq v f)

/-- The interaction of row `b`, subtracting factor by factor. -/
def pairwiseR (x : (⟨2, ![8192, 4096]⟩ : Shape).Idx → EReal) (v : (⟨2, ![4096, 64]⟩ : Shape).Idx → EReal)
    (b : Fin 8192) : EReal :=
  half * ∑ k : Fin 64, (proj x v b k * proj x v b k
    - ∑ f : Fin 4096, (x (ix2 b f) * x (ix2 b f)) * (v (ix2 f k) * v (ix2 f k)))

/-- On real entries the two arrangements are one number. -/
theorem pairwiseK_eq_pairwiseR (x : (⟨2, ![8192, 4096]⟩ : Shape).Idx → EReal)
    (v : (⟨2, ![4096, 64]⟩ : Shape).Idx → EReal)
    (hx : ∀ i, ∃ r : ℝ, x i = (r : EReal)) (hv : ∀ i, ∃ r : ℝ, v i = (r : EReal)) (b : Fin 8192) :
    pairwiseK x v b = pairwiseR x v b := by
  choose xr hxr using hx
  choose vr hvr using hv
  unfold pairwiseK pairwiseR proj rowSq
  simp only [hxr, hvr]
  exact arrangement half (fun f => xr (ix2 b f)) (fun f k => vr (ix2 f k))

/-- The result array `[8192, 1]` in the first arrangement: entry `(b, 0)` is the interaction of row `b`. -/
def outK (x : (⟨2, ![8192, 4096]⟩ : Shape).Idx → EReal) (v : (⟨2, ![4096, 64]⟩ : Shape).Idx → EReal) :
    (⟨2, ![8192, 1]⟩ : Shape).Idx → EReal :=
  fun i => pairwiseK x v ⟨(i 0).val, idx2_lt0 i⟩

/-- The result array in the second arrangement. -/
def outR (x : (⟨2, ![8192, 4096]⟩ : Shape).Idx → EReal) (v : (⟨2, ![4096, 64]⟩ : Shape).Idx → EReal) :
    (⟨2, ![8192, 1]⟩ : Shape).Idx → EReal :=
  fun i => pairwiseR x v ⟨(i 0).val, idx2_lt0 i⟩

/-- On real entries the two result arrays are equal. -/
theorem outK_eq_outR (x : (⟨2, ![8192, 4096]⟩ : Shape).Idx → EReal) (v : (⟨2, ![4096, 64]⟩ : Shape).Idx → EReal)
    (hx : ∀ i, ∃ r : ℝ, x i = (r : EReal)) (hv : ∀ i, ∃ r : ℝ, v i = (r : EReal)) : outK x v = outR x v :=
  funext fun _ => pairwiseK_eq_pairwiseR x v hx hv _

/-! ## One row block of the first arrangement -/

/-- Row `r` of a block of 512 rows `xb` of `x`, with all of `v` and the row `w` of squared norms as loaded. -/
def blockVal (xb : (⟨2, ![512, 4096]⟩ : Shape).Idx → EReal) (v : (⟨2, ![4096, 64]⟩ : Shape).Idx → EReal)
    (w : (⟨2, ![1, 4096]⟩ : Shape).Idx → EReal) (r : Fin 512) : EReal :=
  half * ((∑ k : Fin 64, (∑ f : Fin 4096, xb (ix2 r f) * v (ix2 f k)) * (∑ f : Fin 4096, xb (ix2 r f) * v (ix2 f k)))
    - ∑ f : Fin 4096, (xb (ix2 r f) * xb (ix2 r f)) * w (ix2 (0 : Fin 1) f))

/-- A block's row is the array's row: when the block holds rows `T·512 …` of `x`, the loaded `v` is `v` and the loaded
    `w` is the rows' squared norms, row `r` of the block is the interaction of row `T·512 + r`. -/
theorem blockVal_eq (x : (⟨2, ![8192, 4096]⟩ : Shape).Idx → EReal) (v : (⟨2, ![4096, 64]⟩ : Shape).Idx → EReal)
    (xb : (⟨2, ![512, 4096]⟩ : Shape).Idx → EReal) (vb : (⟨2, ![4096, 64]⟩ : Shape).Idx → EReal)
    (w : (⟨2, ![1, 4096]⟩ : Shape).Idx → EReal) (r : Fin 512) (b : Fin 8192)
    (h0 : ∀ f : Fin 4096, xb (ix2 r f) = x (ix2 b f))
    (h1 : ∀ (f : Fin 4096) (k : Fin 64), vb (ix2 f k) = v (ix2 f k))
    (h2 : ∀ f : Fin 4096, w (ix2 (0 : Fin 1) f) = rowSq v f) :
    blockVal xb vb w r = pairwiseK x v b := by
  unfold blockVal pairwiseK proj
  simp only [h0, h1, h2]

end Cert.Interaction

end
-- ==== Proof.Finite.lean ====
/-
  Finite inputs are real numbers.

  The precondition says of each input array that every entry's absolute value is below `+∞`, all entries
  conjoined. On the extended reals the absolute value of `a` is `max a (−a)`, which is `⊤` exactly at `⊤` and at
  `⊥`; so an entry passing the test is the image of a real number.
-/
import proofs.«130517_j20358144983117_2_alg».proof.Pre_finite_inputs
import Idealize.ShloMosaic.PureOps.Ideal
import Idealize.ShloMosaic.Lib.ValueIdx
import Idealize.ShloMosaic.Lib.ReduceAll

noncomputable section

namespace Cert.Interaction

open Idealize.ShloMosaic Idealize.ShloMosaic.ValueIdx

/-- The f32 word of `+∞` denotes `⊤`. -/
theorem ofBits_inf : Ideal.ofBits .f32 0x7F800000#32 = ⊤ := by
  simp [Ideal.ofBits, Ideal.ieee]

/-- An extended real whose absolute value compares below `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    simp [Ideal.cmp, hn] at h
  induction a using EReal.rec with
  | bot => simp at hlt
  | top => simp at hlt
  | coe r => exact ⟨r, rfl⟩

/-- The scalar shape has one index. -/
instance : Subsingleton Cert.Pre_finite_inputs.S_.Idx := ⟨fun _ _ => funext fun d => d.elim0⟩

/-- Under the precondition every entry of both inputs is a real number. -/
theorem real_of_finite_inputs [Cert.Pre_finite_inputs.Facts]
    (x : FVec Ideal Cert.Pre_finite_inputs.S8192x4096 .f32) (v : FVec Ideal Cert.Pre_finite_inputs.S4096x64 .f32)
    (h : Cert.Pre_finite_inputs.fn (F := Ideal) x v = fun _ => 1#1) :
    (∀ i, ∃ r : ℝ, x i = (r : EReal)) ∧ (∀ i, ∃ r : ℝ, v i = (r : EReal)) := by
  have h0 := congrFun h ix0
  dsimp only [Cert.Pre_finite_inputs.fn] at h0
  obtain ⟨hx, hv⟩ := IntOp.andi_eq_one.1 h0
  exact ⟨fun i => real_of_abs_lt_inf _ (Host.reduce_andi_all _ _ _ _ ix0 hx i),
    fun i => real_of_abs_lt_inf _ (Host.reduce_andi_all _ _ _ _ ix0 hv i)⟩

end Cert.Interaction

end
-- ==== Proof.RefValue.lean ====
/-
  The reference's result is the interaction, subtracting factor by factor.

  Read one operation at a time: the result at `(b, 0)` is one half times the sum over the 64 factors `k` (from
  zero) of the difference between the square of `(x · v)[b,k]` and `(x² · v²)[b,k]`, each matrix product a sum over
  the 4096 features.
-/
import proofs.«130517_j20358144983117_2_alg».proof.Proof.Gen.ReferenceIdeal.Read
import proofs.«130517_j20358144983117_2_alg».proof.Proof.Spec
import Idealize.ShloMosaic.PureOps.Ideal.Laws

noncomputable section

namespace Cert.ReferenceIdeal.RefValue

open Cert.ReferenceIdeal Cert.ReferenceIdeal.Read Cert.Interaction
open Idealize.ShloMosaic Idealize.ShloMosaic.ValueIdx

/-- The sum over the factors reads row `b`, column `k`. -/
theorem factor_idx (b : Fin 8192) (q : Fin 1) (k : Fin 64) :
    idx_main_v6 (idx_main_v7 (ix2 b q)) k = ix2 b k :=
  funext fun a => Fin.ext (by match a with | ⟨0, _⟩ => rfl | ⟨1, _⟩ => rfl)

/-- The first product's left operand is read at row `b`, feature `f`. -/
theorem left_idx0 (b : Fin 8192) (k : Fin 64) (f : Fin 4096) : lidx_main_v0 (ix2 b k) f = ix2 b f :=
  funext fun a => Fin.ext (by match a with | ⟨0, _⟩ => rfl | ⟨1, _⟩ => rfl)

/-- The first product's right operand is read at feature `f`, factor `k`. -/
theorem right_idx0 (b : Fin 8192) (k : Fin 64) (f : Fin 4096) : ridx_main_v0 (ix2 b k) f = ix2 f k :=
  funext fun a => Fin.ext (by match a with | ⟨0, _⟩ => rfl | ⟨1, _⟩ => rfl)

/-- Likewise the second product's operands. -/
theorem left_idx3 (b : Fin 8192) (k : Fin 64) (f : Fin 4096) : lidx_main_v3 (ix2 b k) f = ix2 b f :=
  funext fun a => Fin.ext (by match a with | ⟨0, _⟩ => rfl | ⟨1, _⟩ => rfl)
theorem right_idx3 (b : Fin 8192) (k : Fin 64) (f : Fin 4096) : ridx_main_v3 (ix2 b k) f = ix2 f k :=
  funext fun a => Fin.ext (by match a with | ⟨0, _⟩ => rfl | ⟨1, _⟩ => rfl)

/-- The reference's result array, as a function of its two arguments, is `outR`. -/
theorem result_eq (x : (⟨S8192x4096, .f32⟩ : BufTy).Contents (Elt Ideal)) (v : (⟨S4096x64, .f32⟩ : BufTy).Contents (Elt Ideal)) :
    val_main_v9 (F := Ideal) x v = outR x v := by
  funext i
  obtain ⟨b, q, rfl⟩ : ∃ (b : Fin 8192) (q : Fin 1), i = ix2 b q := ⟨i 0, i 1, eq_ix2 i⟩
  rw [val_main_v9_apply, val_main_v8_apply, val_main_cst_0_apply, val_main_v7_apply, val_main_v6_apply,
    val_main_cst_apply]
  simp only [factor_idx, val_main_v5_apply, val_main_v4_apply, val_main_v3_apply, val_main_v0_apply,
    val_main_v1_apply, val_main_v2_apply, left_idx0, right_idx0, left_idx3, right_idx3,
    Ideal.mulf_def, Ideal.subf_def, Ideal.ofBits_def, Ideal.ofBits_zero_f32, zero_add]
  rfl

end Cert.ReferenceIdeal.RefValue

end
-- ==== Proof.Payload.lean ====
/-
  What the kernel body stores, read at one entry.

  For a block `xb` of 512 rows of `x`, the whole factor matrix `vb` and the row `w` of the rows' squared norms, the
  stored column at row `r` is one half times the difference of two sums: over the 64 factors of the squared
  product `(xb · vb)[r,k]` (the product a sum over the 4096 features; rounding the operands to bf16 is the
  identity on extended reals), and over the features of `xb[r,f]² · w[0,f]`.
-/
import proofs.«130517_j20358144983117_2_alg».proof.Proof.Gen.KernelIdeal.Skeleton
import proofs.«130517_j20358144983117_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Interaction
open Idealize.ShloMosaic Idealize.ShloMosaic.ValueIdx

/-- A vector of 512 entries viewed as a column reads, at `(r, 0)`, entry `r`. -/
theorem column_apply {α : Type} (u : S512.Idx → α) (h : S512.ShapeCasts S512x1) (r : Fin 512) (q : Fin 1) :
    shapeCast S512x1 u h (ix2 r q) = u (ix1 r) :=
  shapeCast_apply u h _ _ (by
    have hq : q.val = 0 := by omega
    rw [Shape.rowMajor_val_two, Shape.rowMajor_val_one]
    show r.val = r.val * 1 + q.val
    rw [hq, Nat.mul_one, Nat.add_zero])

/-- The sum along the 64 factors of a `[512, 64]` block, at row `r`. -/
theorem factor_sum (src : FVec Ideal S512x64 .f32) (h : S512x64.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 64, src (ix2 r k) :=
  (Ideal.multiReduction_add_single src 0x00000000#32 h hφ hacc (ix1 r)).trans
    (Finset.sum_congr rfl fun k _ => congrArg src (funext fun a => Fin.ext (by
      match a with | ⟨0, _⟩ => rfl | ⟨1, _⟩ => rfl)))

/-- The sum along the 4096 features of a `[512, 4096]` block, at row `r`. -/
theorem feature_sum (src : FVec Ideal S512x4096 .f32) (h : S512x4096.Reduces [1] S512) (hφ : FKind.Formats .f32)
    (hacc : (0x00000000#32 : BitVec 32) = FKind.add.neutral .f32 hφ) (r : Fin 512) :
    multiReduction .add [1] S512 src 0x00000000#32 h hφ hacc (ix1 r) = ∑ f : Fin 4096, src (ix2 r f) :=
  (Ideal.multiReduction_add_single src 0x00000000#32 h hφ hacc (ix1 r)).trans
    (Finset.sum_congr rfl fun k _ => congrArg src (funext fun a => Fin.ext (by
      match a with | ⟨0, _⟩ => rfl | ⟨1, _⟩ => rfl)))

/-- The block product into a zero accumulator, at `(r, k)`: the sum over the features of row `r` of the left
    operand times column `k` of the right. -/
theorem product_apply (xb : FVec Ideal S512x4096 .bf16) (vb : FVec Ideal S4096x64 .bf16) (r : Fin 512) (k : Fin 64) :
    matmul dot_S512x4096_S4096x64_S512x64_1_0_0_1_n_n none xb vb (constant S512x64 .f32 0x00000000#32) (ix2 r k)
      = ∑ f : Fin 4096, xb (ix2 r f) * vb (ix2 f k) := by
  refine (Ideal.matmul_constant_zero_apply dot_S512x4096_S4096x64_S512x64_1_0_0_1_n_n none xb vb (ix2 r k)).trans ?_
  rw [← Equiv.sum_comp (contrEquiv1 dot_S512x4096_S4096x64_S512x64_1_0_0_1_n_n 4096 rfl rfl).symm]
  refine Finset.sum_congr rfl fun f _ => ?_
  have hk := contrEquiv1_symm_val dot_S512x4096_S4096x64_S512x64_1_0_0_1_n_n 4096 rfl rfl f
  have el : dot_S512x4096_S4096x64_S512x64_1_0_0_1_n_n.lhsIdx (ix2 r k) ((contrEquiv1 dot_S512x4096_S4096x64_S512x64_1_0_0_1_n_n 4096 rfl rfl).symm f) = ix2 r f :=
    funext fun a => Fin.ext (by
      match a with
      | ⟨0, _⟩ =>
        show (dot_S512x4096_S4096x64_S512x64_1_0_0_1_n_n.lhsIdx (ix2 r k) _ 0).val = r.val
        unfold DotDims.lhsIdx
        rw [dif_neg (show ¬(0 : Fin S512x4096.rank) ∈ dot_S512x4096_S4096x64_S512x64_1_0_0_1_n_n.lhsBatch by decide),
          dif_pos (show (0 : Fin S512x4096.rank) ∈ dot_S512x4096_S4096x64_S512x64_1_0_0_1_n_n.lhsNonContracting by decide)]
        rfl
      | ⟨1, _⟩ => exact (dot_S512x4096_S4096x64_S512x64_1_0_0_1_n_n.lhsIdx_val_of_single rfl (ix2 r k) _).trans hk)
  have er : dot_S512x4096_S4096x64_S512x64_1_0_0_1_n_n.rhsIdx (ix2 r k) ((contrEquiv1 dot_S512x4096_S4096x64_S512x64_1_0_0_1_n_n 4096 rfl rfl).symm f) = ix2 f k :=
    funext fun a => Fin.ext (by
      match a with
      | ⟨0, _⟩ => exact (dot_S512x4096_S4096x64_S512x64_1_0_0_1_n_n.rhsIdx_val_of_single rfl (ix2 r k) _).trans hk
      | ⟨1, _⟩ =>
        show (dot_S512x4096_S4096x64_S512x64_1_0_0_1_n_n.rhsIdx (ix2 r k) _ 1).val = k.val
        unfold DotDims.rhsIdx
        rw [dif_neg (show ¬(1 : Fin S4096x64.rank) ∈ dot_S512x4096_S4096x64_S512x64_1_0_0_1_n_n.rhsBatch by decide),
          dif_pos (show (1 : Fin S4096x64.rank) ∈ dot_S512x4096_S4096x64_S512x64_1_0_0_1_n_n.rhsNonContracting by decide)]
        rfl)
  rw [el, er]

/-- The one row `w`, cast to its own shape and broadcast over the 512 rows, reads `w[0, f]` at `(r, f)`. -/
theorem norms_apply (w : FVec Ideal S1x4096 .f32) (hc : S1x4096.ShapeCasts S1x4096) (hb : S1x4096.Broadcasts S512x4096)
    (r : Fin 512) (f : Fin 4096) :
    broadcastTo S512x4096 (shapeCast S1x4096 w hc) hb (ix2 r f) = w (ix2 (0 : Fin 1) f) := by
  rw [shapeCast_self]
  exact broadcastTo_1b_ab_apply w hb r f

/-- THE STORED COLUMN at row `r` is `blockVal` of the loaded blocks. -/
theorem payload_apply (x0 : Vec Ideal S512x4096 .f32) (x1 : Vec Ideal S4096x64 .f32) (x2 : Vec Ideal S1x4096 .f32)
    (r : Fin 512) (q : Fin 1) :
    k0_pay1 (F := Ideal) x0 x1 x2 (ix2 r q) = blockVal x0 x1 x2 r := by
  unfold k0_pay1 blockVal half
  show Ideal.ofBits .f32 0x3F000000#32 * (shapeCast S512x1 _ _ (ix2 r q) - shapeCast S512x1 _ _ (ix2 r q)) = _
  rw [column_apply, column_apply]
  refine congrArg (Ideal.ofBits .f32 0x3F000000#32 * ·) (congrArg₂ (· - ·) ?_ ?_)
  · refine (factor_sum _ _ _ _ r).trans (Finset.sum_congr rfl fun k _ => ?_)
    show matmul dot_S512x4096_S4096x64_S512x64_1_0_0_1_n_n none _ _ _ (ix2 r k) * matmul dot_S512x4096_S4096x64_S512x64_1_0_0_1_n_n none _ _ _ (ix2 r k) = _
    rw [product_apply]
    rfl
  · refine (feature_sum _ _ _ _ r).trans (Finset.sum_congr rfl fun f _ => ?_)
    show (x0 (ix2 r f) * x0 (ix2 r f)) * broadcastTo S512x4096 (shapeCast S1x4096 x2 _) _ (ix2 r f) = _
    rw [norms_apply]

end Cert.KernelIdeal.Body

end
-- ==== Proof.Norms.lean ====
/-
  What the region finds in the third window's array: the row of squared norms.

  Before the region the host squares `v` entrywise, sums each row over its 64 factors (from zero), views the 4096
  sums as a column and transposes it to a row. So entry `(0, f)` of that row is `∑ k, v[f,k]²`.
-/
import proofs.«130517_j20358144983117_2_alg».proof.Proof.Gen.KernelIdeal.Frame
import proofs.«130517_j20358144983117_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Norms

open Cert.KernelIdeal Cert.KernelIdeal.Gen Cert.Interaction
open Idealize.ShloMosaic Idealize.ShloMosaic.TcCoe Idealize.SL.Sem Idealize.ShloMosaic.StableHlo
open Idealize.ShloMosaic.ValueIdx

/-- The host operations' composed term, as a function of `v`. -/
def normsRow (v : FVec Ideal S4096x64 .f32) : FVec Ideal S1x4096 .f32 :=
  transpose S1x4096 [1, 0]
    (broadcastInDim S4096x1 ![0] bcast_S4096_S4096x1_0
      (Host.reduceAdd (F := Ideal) (mulf v v) (constant (F := Ideal) S_ .f32 0x00000000#32) reducesTo_S4096x64_S4096_d1 h_S_))
    transposes_S4096x1_S1x4096_1_0

/-- Its entry `(0, f)` is the squared norm of row `f` of `v`. -/
theorem normsRow_apply (v : FVec Ideal S4096x64 .f32) (f : Fin 4096) :
    normsRow v (ix2 (0 : Fin 1) f) = rowSq v f := by
  unfold normsRow rowSq
  rw [transpose_ix2_apply]
  refine (broadcastInDim_apply _ bcast_S4096_S4096x1_0 _ (ix2 f (0 : Fin 1)) (ix1 f) (fun a => match a with
    | ⟨0, _⟩ => by show f.val = if (4096 : Nat) = 1 then 0 else f.val; rw [if_neg (by decide)])).trans ?_
  simp only [Host.reduceAdd, Ideal.hostReduceAdd_def]
  rw [Ideal.hostReduceAdd_single reducesTo_S4096x64_S4096_d1 (by decide)]
  show Ideal.ofBits .f32 0x00000000#32 + _ = _
  rw [Ideal.ofBits_zero_f32, zero_add]
  refine Finset.sum_congr rfl fun k _ => ?_
  show v _ * v _ = _
  have e : (Shape.Reduces.lift (s := S4096x64) (t := S4096) (a := 1) (by decide) (ix1 f) k) = ix2 f k :=
    funext fun a => Fin.ext (by match a with | ⟨0, _⟩ => rfl | ⟨1, _⟩ => rfl)
  rw [e]
  rfl

variable (m : (ℓ : Loc nD τ sig) → Buf (Elt Ideal) ℓ)

/-- When the region is entered the third window's array holds that row of `v` as launched. -/
theorem V_main_v3 (c : Dev nD) :
    (V m c main_v3 : S1x4096.Idx → EReal) = normsRow (m ((c : Thread nD τ).loc main_arg1)) := by
  dsimp only [Gen.V, Gen.hostOps0]
  after_results
  rfl

end Cert.KernelIdeal.Norms

end
-- ==== Proof.KernelValue.lean ====
/-
  The kernel's result array after the run is `outK` of its two arguments.

  The grid has 16 points; point `t` works on rows `512·t … 512·t + 511` of `x`, on all of `v` and on the whole row of
  squared norms, and writes back rows `512·t …` of the `[8192, 1]` result. What it writes at row `r` of its block
  is the interaction of row `512·t + r` (the stored column read at an entry, the block's rows being the array's
  rows); the 16 blocks cover the result, so the array is `outK` everywhere.
-/
import proofs.«130517_j20358144983117_2_alg».proof.Proof.Gen.KernelIdeal.Value
import proofs.«130517_j20358144983117_2_alg».proof.Proof.Payload
import proofs.«130517_j20358144983117_2_alg».proof.Proof.Norms

noncomputable section

namespace Cert.KernelIdeal.Body

open Cert.KernelIdeal Cert.KernelIdeal.Gen Cert.Interaction
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 points: the rows window moves with the result window along the rows and
    stays at column block 0; `v` and the norms row stay at block (0, 0); the result's row block is below 16. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every row block of the result is some point's. -/
theorem idx_onto : ∀ q : Fin 16, ∃ t : Fin cfg0.N, win0_3.index t = ![q.val, 0] :=
  (by decide +kernel : ∀ q : Fin 16, ∃ t : Fin grid0.N, win0_3.index t = ![q.val, 0])

/-- Point `t`'s block of `x` at `y` is `x` at row `512·(row block) + y₀`, column `y₁`. -/
theorem rows_block (c : Dev nD) (t : Fin cfg0.N) (y : S512x4096.Idx) (i : S8192x4096.Idx)
    (h0 : (i 0).val = win0_3.index t (0 : Fin 2) * 512 + (y 0).val) (h1 : (i 1).val = (y 1).val) :
    iblk m c 0 t y = (m ((c : Thread nD τ).loc main_arg0) : S8192x4096.Idx → EReal) i := by
  obtain ⟨e0, e1, -⟩ := idx_facts t
  refine Eq.trans ?_ (congrFun (V_main_arg0 m c) i)
  unfold iblk
  rw [View.read_apply]
  show V m c main_arg0 (((cfg0.win 0).blk t).view.emb y) = V m c main_arg0 i
  refine congrArg (V m c main_arg0) (funext fun a => Fin.ext ?_)
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- Every point's block of `v` is `v`. -/
theorem factors_block (c : Dev nD) (t : Fin cfg0.N) (y : S4096x64.Idx) :
    iblk m c 1 t y = (m ((c : Thread nD τ).loc main_arg1) : S4096x64.Idx → EReal) y := by
  obtain ⟨-, -, e2, e3, -⟩ := idx_facts t
  refine Eq.trans ?_ (congrFun (V_main_arg1 m c) y)
  unfold iblk
  rw [View.read_apply]
  show V m c main_arg1 (((cfg0.win 1).blk t).view.emb y) = V m c main_arg1 y
  refine congrArg (V m c main_arg1) (funext fun a => Fin.ext ?_)
  match a with
  | ⟨0, _⟩ => show win0_1.index t (0 : Fin 2) * 4096 + 1 * (y 0).val = (y 0).val; omega
  | ⟨1, _⟩ => show win0_1.index t (1 : Fin 2) * 64 + 1 * (y 1).val = (y 1).val; omega

/-- Every point's block of the third window is the row of squared norms of `v`. -/
theorem norms_block (c : Dev nD) (t : Fin cfg0.N) (y : S1x4096.Idx) :
    iblk m c 2 t y = Norms.normsRow (m ((c : Thread nD τ).loc main_arg1)) y := by
  obtain ⟨-, -, -, -, e4, e5, -⟩ := idx_facts t
  refine Eq.trans ?_ (congrFun (Norms.V_main_v3 m c) y)
  unfold iblk
  rw [View.read_apply]
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

/-- The stored column at an entry `y` of a block is the result array's entry `i`, when the block's row at `y` is
    row `b` of `x`, the loaded factors are `v`, the loaded row is the squared norms, and `i` is in row `b`. -/
theorem point_value (X : S8192x4096.Idx → EReal) (Vv : S4096x64.Idx → EReal)
    (x0 : Vec Ideal S512x4096 .f32) (x1 : Vec Ideal S4096x64 .f32) (x2 : Vec Ideal S1x4096 .f32)
    (y : S512x1.Idx) (i : S8192x1.Idx) (b : Fin 8192) (hb : (i 0).val = b.val)
    (h0 : ∀ f : Fin 4096, x0 (ix2 (⟨(y 0).val, idx2_lt0 y⟩ : Fin 512) f) = X (ix2 b f))
    (h1 : ∀ (f : Fin 4096) (k : Fin 64), x1 (ix2 f k) = Vv (ix2 f k))
    (h2 : ∀ f : Fin 4096, x2 (ix2 (0 : Fin 1) f) = rowSq Vv f) :
    k0_pay1 (F := Ideal) x0 x1 x2 y = outK X Vv i := by
  obtain ⟨r, q, rfl⟩ : ∃ (r : Fin 512) (q : Fin 1), y = ix2 r q := ⟨y 0, y 1, eq_ix2 y⟩
  rw [payload_apply]
  unfold outK
  have hi : (⟨(i 0).val, idx2_lt0 i⟩ : Fin 8192) = b := Fin.ext hb
  rw [hi]
  exact blockVal_eq X Vv x0 x1 x2 r b h0 h1 h2

/-- WHAT POINT `t` WRITES BACK is block `t` of `outK` of the arguments. -/
theorem flushed_eq (c : Dev nD) (t : Fin cfg0.N) :
    (dats m 0 c).flushed 3 t = ((cfg0.win 3).blk t).view.read (Elt Ideal)
      (outK (m ((c : Thread nD τ).loc main_arg0)) (m ((c : Thread nD τ).loc main_arg1))) := by
  rw [Cert.KernelIdeal.Value.flushed3]
  unfold out0_3
  rw [View.canon_unit_zero hz]
  simp only [View.ld_unit_zero (S := S512x4096) hz, View.ld_unit_zero (S := S4096x64) hz,
    View.ld_unit_zero (S := S1x4096) hz]
  obtain ⟨-, -, -, -, -, -, e6, e7⟩ := idx_facts t
  funext j
  have hj : (j 0).val < 512 := (j 0).isLt
  show k0_pay1 (iblk m c 0 t) (iblk m c 1 t) (iblk m c 2 t) j
    = outK (m ((c : Thread nD τ).loc main_arg0)) (m ((c : Thread nD τ).loc main_arg1)) (((cfg0.win 3).blk t).view.emb j)
  refine point_value _ _ _ _ _ j _ ⟨win0_3.index t (0 : Fin 2) * 512 + (j 0).val, by omega⟩ ?_ ?_ ?_ ?_
  · show win0_3.index t (0 : Fin 2) * 512 + 1 * (j 0).val = win0_3.index t (0 : Fin 2) * 512 + (j 0).val
    omega
  · intro f
    exact rows_block m c t _ _ rfl rfl
  · intro f k
    exact factors_block m c t _
  · intro f
    exact (norms_block m c t _).trans (Norms.normsRow_apply _ f)

/-- An index of the result is in point `t`'s block iff each coordinate is in the block's range on its axis. -/
theorem mem_blk (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v4).slice (win0_3.rect t)).set ↔ _
  rw [View.set_slice_whole, Rect.mem_set_unit]
  exact Iff.rfl

/-- Row `b` of the result is in the block of the point whose row block is `b / 512`. -/
theorem cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1 ≤ (i 1).val ∧ (i 1).val < win0_3.index t (1 : Fin 2) * 1 + 1
    omega

/-- THE RESULT ARRAY after the run. -/
theorem final (c : Dev nD) : (dats m 0 c).arrAt 3 cfg0.N
    = outK (m ((c : Thread nD τ).loc main_arg0)) (m ((c : Thread nD τ).loc main_arg1)) :=
  (dats m 0 c).arrAt_eq_of_cover 3 _ (fun t _ => flushed_eq m c t) cover

/-- The run, read: the result at `outK` of the arguments, the arguments unchanged. -/
theorem run : θ_run defs (onTc (τ := τ) (main (F := Ideal))) ⟨m, fun _ => 0, ρ⟩ fun r => ∀ c : Dev nD,
      r.2.mem ((c : Thread nD τ).loc main_v4)
        = outK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Body

end
-- ==== Proof.lean ====
/-
  The pairwise interaction of a factorization machine: the kernel against its jnp reference, on the extended reals.

  Both programs compute, for each of the 8192 rows `b` of `x`, one half of
  `∑ k, (x · v)[b,k]² − ∑ k, (x² · v²)[b,k]`, `k` over the 64 factors. The reference forms both `[8192, 64]` products,
  subtracts entry by entry and then sums over `k`. The kernel forms only `x · v` (on 512 rows at a time), sums its
  squares over `k`, and replaces the second product by `∑ f, x[b,f]² · w[f]` with `w[f] = ∑ k, v[f,k]²` computed once
  on the host: the sum over `k` has been moved inside the sum over the 4096 features `f`.

  The two are the same number whenever every entry is finite: the difference of two finite sums is the sum of the
  differences, a factor moves into a finite sum, and two finite sums commute (Proof/Spec.lean). These steps fail
  at infinite entries, so the precondition is used: an entry whose absolute value is below `+∞` is a real number
  (Proof/Finite.lean). The half is the same f32 word on both sides and is never evaluated; rounding the product's
  operands to bf16 is the identity on extended reals; the sums start from the zero word, which is `0`.

  The kernel's result array is read off its run block by block (Proof/KernelValue.lean, over the stored column read
  at an entry, Proof/Payload.lean, and the host's row of squared norms, Proof/Norms.lean); the reference's is read one
  operation at a time (Proof/RefValue.lean). The three frames are the generated runs; the idealization rewrote
  nothing, so there is nothing to preserve.
-/
import proofs.«130517_j20358144983117_2_alg».proof.Defs
import proofs.«130517_j20358144983117_2_alg».proof.Proof.Gen.Kernel
import proofs.«130517_j20358144983117_2_alg».proof.Proof.Gen.Kernel.Skeleton
import proofs.«130517_j20358144983117_2_alg».proof.Proof.Gen.Kernel.Launch
import proofs.«130517_j20358144983117_2_alg».proof.Proof.Gen.Kernel.Points
import proofs.«130517_j20358144983117_2_alg».proof.Proof.Gen.Kernel.Frame
import proofs.«130517_j20358144983117_2_alg».proof.Proof.Gen.KernelIdeal
import proofs.«130517_j20358144983117_2_alg».proof.Proof.Gen.KernelIdeal.Skeleton
import proofs.«130517_j20358144983117_2_alg».proof.Proof.Gen.KernelIdeal.Launch
import proofs.«130517_j20358144983117_2_alg».proof.Proof.Gen.KernelIdeal.Points
import proofs.«130517_j20358144983117_2_alg».proof.Proof.Gen.KernelIdeal.Frame
import proofs.«130517_j20358144983117_2_alg».proof.Proof.Gen.ReferenceIdeal
import proofs.«130517_j20358144983117_2_alg».proof.Proof.Gen.Pre_finite_inputs
import proofs.«130517_j20358144983117_2_alg».proof.Proof.Gen.KernelIdeal.Value
import proofs.«130517_j20358144983117_2_alg».proof.Proof.Gen.ReferenceIdeal.Run
import proofs.«130517_j20358144983117_2_alg».proof.Proof.Gen.ReferenceIdeal.Read
import proofs.«130517_j20358144983117_2_alg».proof.Proof.Spec
import proofs.«130517_j20358144983117_2_alg».proof.Proof.Finite
import proofs.«130517_j20358144983117_2_alg».proof.Proof.RefValue
import proofs.«130517_j20358144983117_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x` and `v`, with every entry finite, both programs end with the result array at the
    pairwise interaction of each row: the kernel's in the arrangement with the rows' squared norms, the
    reference's factor by factor, equal on real entries. -/
theorem algebraic : Cert.algebraic_KernelIdeal_ReferenceIdeal := by
  intro m ρ m' ρ' hpre hagree
  refine ⟨fun c => Cert.Interaction.outK (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]
  obtain ⟨hx, hv⟩ := Cert.Interaction.real_of_finite_inputs _ _ (hpre c)
  exact (Cert.Interaction.outK_eq_outR _ _ hx hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
